-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x2048 : Shape := ⟨3, ![8, 2048, 2048]⟩
abbrev S512x512 : Shape := ⟨2, ![512, 512]⟩
abbrev S2048 : Shape := ⟨1, ![2048]⟩
abbrev S_ : Shape := ⟨0, ![]⟩

class Facts : Prop where
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S512x512 .f32) (main_arg5 : FVec F S2048 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  main_v28

def fn {F : FTy → Type} [FloatOps F] (main_arg0 : FVec F S8x2048x2048 .f32) (main_arg1 : FVec F S512x512 .f32) (main_arg2 : FVec F S512x512 .f32) (main_arg3 : FVec F S512x512 .f32) (main_arg4 : FVec F S512x512 .f32) (main_arg5 : FVec F S2048 .f32) : IVec S_ 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_c : IVec S_ 1 := constantI S_ 1 1#1
  let main_v3 : IVec S_ 1 := (fun x v => Host.reduce IntOp.andi x v reducesTo_S8x2048x2048_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_v13 main_v16
-- ==== Kernel.lean ====
abbrev S8x2048x2048 : Shape := ⟨3, ![8, 2048, 2048]⟩
abbrev S512x512 : Shape := ⟨2, ![512, 512]⟩
abbrev S2048 : Shape := ⟨1, ![2048]⟩
abbrev S512x2048 : Shape := ⟨2, ![512, 2048]⟩
abbrev S2048x2048 : Shape := ⟨2, ![2048, 2048]⟩
abbrev S1x2048 : Shape := ⟨2, ![1, 2048]⟩
abbrev S16384x2048 : Shape := ⟨2, ![16384, 2048]⟩

abbrev nBuf : Space → Nat
  | .hbm => 26
  | .vmem => 6
  | .smem => 0
  | _ => 0

abbrev bufTy : (tb : Table) → Fin (tcTables nBuf tb) → BufTy
  | .hbm, ⟨0, _⟩ => ⟨S8x2048x2048, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S2048, .f32⟩
  | .hbm, ⟨6, _⟩ => ⟨S512x512, .f32⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S512x2048, .f32⟩
  | .hbm, ⟨11, _⟩ => ⟨S512x512, .f32⟩
  | .hbm, ⟨12, _⟩ => ⟨S512x512, .f32⟩
  | .hbm, ⟨13, _⟩ => ⟨S512x2048, .f32⟩
  | .hbm, ⟨14, _⟩ => ⟨S512x512, .f32⟩
  | .hbm, ⟨15, _⟩ => ⟨S512x512, .f32⟩
  | .hbm, ⟨16, _⟩ => ⟨S512x2048, .f32⟩
  | .hbm, ⟨17, _⟩ => ⟨S512x512, .f32⟩
  | .hbm, ⟨18, _⟩ => ⟨S512x512, .f32⟩
  | .hbm, ⟨19, _⟩ => ⟨S512x2048, .f32⟩
  | .hbm, ⟨20, _⟩ => ⟨S2048x2048, .f32⟩
  | .hbm, ⟨21, _⟩ => ⟨S2048x2048, .bf16⟩
  | .hbm, ⟨22, _⟩ => ⟨S1x2048, .f32⟩
  | .hbm, ⟨23, _⟩ => ⟨S16384x2048, .f32⟩
  | .hbm, ⟨24, _⟩ => ⟨S16384x2048, .f32⟩
  | .hbm, ⟨25, _⟩ => ⟨S8x2048x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S512x512_S512x512_1_0 : S512x512.Transposes [1, 0] S512x512
  concatenates_S512x512_S512x512_S512x512_S512x512_S512x2048_d1 : Shape.Concatenates [S512x512, S512x512, S512x512, S512x512] S512x2048 1
  concatenates_S512x2048_S512x2048_S512x2048_S512x2048_S2048x2048_d0 : Shape.Concatenates [S512x2048, S512x2048, S512x2048, S512x2048] S2048x2048 0
  bitsLt_bf16_f32 : FTy.bits .bf16 < FTy.bits .f32
  shapeCasts_S2048_S1x2048 : S2048.ShapeCasts S1x2048
  shapeCasts_S8x2048x2048_S16384x2048 : S8x2048x2048.ShapeCasts S16384x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S16384x2048_S8x2048x2048 : S16384x2048.ShapeCasts S8x2048x2048
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S16384x2048.size a
  hwx0_3 : ∀ i : grid0.Coords, EltTy.bits .f32 = 32 ∨ (Rect.block (s := S16384x2048) S512x2048.size (cc0_transform_3 i) (hinb0_3 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_v17) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x2048 : Shape := ⟨3, ![8, 2048, 2048]⟩
abbrev S512x512 : Shape := ⟨2, ![512, 512]⟩
abbrev S2048 : Shape := ⟨1, ![2048]⟩
abbrev S512x2048 : Shape := ⟨2, ![512, 2048]⟩
abbrev S2048x2048 : Shape := ⟨2, ![2048, 2048]⟩
abbrev S1x1x2048 : Shape := ⟨3, ![1, 1, 2048]⟩

abbrev nBuf : Space → Nat
  | .hbm => 21
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S2048, .f32⟩
  | .hbm, ⟨6, _⟩ => ⟨S512x512, .f32⟩
  | .hbm, ⟨7, _⟩ => ⟨S512x512, .f32⟩
  | .hbm, ⟨8, _⟩ => ⟨S512x512, .f32⟩
  | .hbm, ⟨9, _⟩ => ⟨S512x2048, .f32⟩
  | .hbm, ⟨10, _⟩ => ⟨S512x512, .f32⟩
  | .hbm, ⟨11, _⟩ => ⟨S512x2048, .f32⟩
  | .hbm, ⟨12, _⟩ => ⟨S512x512, .f32⟩
  | .hbm, ⟨13, _⟩ => ⟨S512x2048, .f32⟩
  | .hbm, ⟨14, _⟩ => ⟨S512x512, .f32⟩
  | .hbm, ⟨15, _⟩ => ⟨S512x2048, .f32⟩
  | .hbm, ⟨16, _⟩ => ⟨S2048x2048, .f32⟩
  | .hbm, ⟨17, _⟩ => ⟨S8x2048x2048, .f32⟩
  | .hbm, ⟨18, _⟩ => ⟨S1x1x2048, .f32⟩
  | .hbm, ⟨19, _⟩ => ⟨S8x2048x2048, .f32⟩
  | .hbm, ⟨20, _⟩ => ⟨S8x2048x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  concatenates_S512x512_S512x512_S512x512_S512x512_S512x2048_d1 : Shape.Concatenates [S512x512, S512x512, S512x512, S512x512] S512x2048 1
  concatenates_S512x2048_S512x2048_S512x2048_S512x2048_S2048x2048_d0 : Shape.Concatenates [S512x2048, S512x2048, S512x2048, S512x2048] S2048x2048 0
  bcast_S2048_S1x1x2048_2 : S2048.BroadcastsInDim S1x1x2048 (![2] : Fin 1 → Fin S1x1x2048.rank)
  bcast_S1x1x2048_S8x2048x2048_0_1_2 : S1x1x2048.BroadcastsInDim S8x2048x2048 (![0, 1, 2] : Fin 3 → Fin S8x2048x2048.rank)
  dot_S8x2048x2048_S2048x2048_S8x2048x2048_2_1_01_0_n_n_wf : DotDims.WF S8x2048x2048 S2048x2048 S8x2048x2048 [2] [1] [0, 1] [0] [] []

variable [Facts₀]

def dot_S8x2048x2048_S2048x2048_S8x2048x2048_2_1_01_0_n_n : DotDims S8x2048x2048 S2048x2048 S8x2048x2048 where
  lhsContracting := [2]
  rhsContracting := [1]
  lhsNonContracting := [0, 1]
  rhsNonContracting := [0]
  lhsBatch := []
  rhsBatch := []
  wf := dot_S8x2048x2048_S2048x2048_S8x2048x2048_2_1_01_0_n_n_wf

class Facts : Prop extends Facts₀ where

variable [Facts]
-- ==== Proof.KernelFrame.lean ====
/-
  The frame of the program: @main is eighteen lines that assemble the 2048 × 2048 weight matrix from four
  512 × 512 blocks (transposes, negations, joins along columns and then rows), round it, and re-lay the bias as one
  row and the input as a 16384 × 2048 matrix; then ONE launch over 32 tiles of 512 rows, each tile the product of
  the tile's rows with the whole weight matrix plus the bias row; then one line re-laying the result as 8 × 2048 × 2048.
  Written for any reading of the floats. What is shown: every weakly fair execution of @main ends, faults nowhere,
  leaves each array of the launch at the contents the tiles wrote back, and leaves every other buffer — the six
  arguments among them — as the lines after the launch leave it; no line writes an argument, so the arguments end
  as they began.
  The body of a tile reads its three input blocks whole, reads (and ignores) the output buffer, and stores ONE value
  over the whole output block: the stored value as a function of the three blocks is `tile`.
-/
import proofs.«130482_j59906203844671_2_alg».proof.Proof.Gen.Kernel.Launch
import proofs.«130482_j59906203844671_2_alg».proof.Proof.Gen.Kernel.Skeleton
import proofs.«130482_j59906203844671_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the launch -/

/-- What the core's buffers hold when the launch is entered: the start contents after the eighteen lines before it. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the lines before the launch, the launch, and the line after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The line after the launch touches unscoped buffers of the core only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes none of the launch's four arrays (it writes the final result only). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- None of the lines before the launch writes argument 0: the launch finds it as it was at the start. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- None of the lines before the launch writes argument 1: the launch finds it as it was at the start. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- None of the lines before the launch writes argument 2: the launch finds it as it was at the start. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- None of the lines before the launch writes argument 3: the launch finds it as it was at the start. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- None of the lines before the launch writes argument 4: the launch finds it as it was at the start. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- None of the lines before the launch writes argument 5: the launch finds it as it was at the start. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: argument 0 ends as it was at the start. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- Nor does the line after it: argument 1 ends as it was at the start. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- Nor does the line after it: argument 2 ends as it was at the start. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- Nor does the line after it: argument 3 ends as it was at the start. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- Nor does the line after it: argument 4 ends as it was at the start. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- Nor does the line after it: argument 5 ends as it was at the start. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the point fetches it or
    not (where it is not fetched the block index has not moved since the last fetch). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether the point fetches it or
    not (where it is not fetched the block index has not moved since the last fetch). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether the point fetches it or
    not (where it is not fetched the block index has not moved since the last fetch). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The arguments end as they began -/

/-- From a run that ends with every buffer outside the launch's arrays as the line after the launch leaves it, the
    six arguments end as they began. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c)⟩) h

/-! ## The tile's body -/

/-- The whole of each staging buffer. -/
abbrev rX : Rect S512x2048 := Rect.unit (s := S512x2048) ![0, 0] S512x2048.size inb_S512x2048_S512x2048_0_0
abbrev rW : Rect S2048x2048 := Rect.unit (s := S2048x2048) ![0, 0] S2048x2048.size inb_S2048x2048_S2048x2048_0_0
abbrev rB : Rect S1x2048 := Rect.unit (s := S1x2048) ![0, 0] S1x2048.size inb_S1x2048_S1x2048_0_0

/-- What the body leaves in the output buffer, from the three input blocks: its one store, over the whole buffer. -/
def tile (x0 : Vec F S512x2048 .f32) (x1 : Vec F S2048x2048 .bf16) (x2 : Vec F S1x2048 .f32) : Vec F S512x2048 .f32 :=
  View.canon [⟨rX, k0_pay1 (View.ld x0 rX) (View.ld x1 rW) (View.ld x2 rB)⟩]

/-- The one store covers the buffer. -/
theorem tile_cover (p0 : Vec F S512x2048 .f32) (y : S512x2048.Idx) :
    ∃ pc ∈ ([⟨rX, p0⟩] : List (View.Piece (Elt F) S512x2048 .f32)), y ∈ pc.1.set :=
  View.cover_of_tiled [⟨rX, p0⟩] S512x2048.size (by rfl) y

set_option maxHeartbeats 1000000 in
/-- The body on whole staging buffers — the three inputs at known contents, the output at any — ends with the inputs
    as they were and the output at `tile` of them. -/
theorem sound_kernel (c : Dev nD) (E : Set ℕ) (i : grid0.Coords)
    (arg1 : Memref sig .tc .vmem S512x2048 .f32) (harg1 : arg1.IsWhole) (arg2 : Memref sig .tc .vmem S2048x2048 .bf16) (harg2 : arg2.IsWhole)
    (arg3 : Memref sig .tc .vmem S1x2048 .f32) (harg3 : arg3.IsWhole) (arg4 : Memref sig .tc .vmem S512x2048 .f32) (harg4 : arg4.IsWhole)
    (x0 : Vec F S512x2048 .f32) (x1 : Vec F S2048x2048 .bf16) (x2 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (tile x0 x1 x2)) -∗ K ⟨⟩))
      ⊢ wp frame (wpE (defs₀ (F := F)) Variants.none c none) E (cc0__matmul_kernel i arg1 harg1 arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (tile_cover _)

/-! ## What each window's buffer holds after each tile -/

/-- On core `c`: the arrays as the launch finds them; after tile `t` each input buffer at its block and the output
    buffer at `tile` of the three blocks; nothing else owned or owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => tile (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = tile (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body at a tile -/

/-- What the body is handed at tile `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main ends, with each array of the launch at what the tiles wrote back and every
    other unscoped buffer as the line after the launch leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: every weakly fair execution of @main ends, faults nowhere, and leaves the six arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Frame

end
-- ==== Proof.KernelIdealFrame.lean ====
/-
  The frame of the program: @main is eighteen lines that assemble the 2048 × 2048 weight matrix from four
  512 × 512 blocks (transposes, negations, joins along columns and then rows), round it, and re-lay the bias as one
  row and the input as a 16384 × 2048 matrix; then ONE launch over 32 tiles of 512 rows, each tile the product of
  the tile's rows with the whole weight matrix plus the bias row; then one line re-laying the result as 8 × 2048 × 2048.
  Written for any reading of the floats. What is shown: every weakly fair execution of @main ends, faults nowhere,
  leaves each array of the launch at the contents the tiles wrote back, and leaves every other buffer — the six
  arguments among them — as the lines after the launch leave it; no line writes an argument, so the arguments end
  as they began.
  The body of a tile reads its three input blocks whole, reads (and ignores) the output buffer, and stores ONE value
  over the whole output block: the stored value as a function of the three blocks is `tile`.
-/
import proofs.«130482_j59906203844671_2_alg».proof.Proof.Gen.KernelIdeal.Launch
import proofs.«130482_j59906203844671_2_alg».proof.Proof.Gen.KernelIdeal.Skeleton
import proofs.«130482_j59906203844671_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the launch -/

/-- What the core's buffers hold when the launch is entered: the start contents after the eighteen lines before it. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the lines before the launch, the launch, and the line after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The line after the launch touches unscoped buffers of the core only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes none of the launch's four arrays (it writes the final result only). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- None of the lines before the launch writes argument 0: the launch finds it as it was at the start. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- None of the lines before the launch writes argument 1: the launch finds it as it was at the start. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- None of the lines before the launch writes argument 2: the launch finds it as it was at the start. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- None of the lines before the launch writes argument 3: the launch finds it as it was at the start. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- None of the lines before the launch writes argument 4: the launch finds it as it was at the start. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- None of the lines before the launch writes argument 5: the launch finds it as it was at the start. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: argument 0 ends as it was at the start. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- Nor does the line after it: argument 1 ends as it was at the start. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- Nor does the line after it: argument 2 ends as it was at the start. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- Nor does the line after it: argument 3 ends as it was at the start. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- Nor does the line after it: argument 4 ends as it was at the start. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- Nor does the line after it: argument 5 ends as it was at the start. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the point fetches it or
    not (where it is not fetched the block index has not moved since the last fetch). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether the point fetches it or
    not (where it is not fetched the block index has not moved since the last fetch). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether the point fetches it or
    not (where it is not fetched the block index has not moved since the last fetch). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The arguments end as they began -/

/-- From a run that ends with every buffer outside the launch's arrays as the line after the launch leaves it, the
    six arguments end as they began. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c)⟩) h

/-! ## The tile's body -/

/-- The whole of each staging buffer. -/
abbrev rX : Rect S512x2048 := Rect.unit (s := S512x2048) ![0, 0] S512x2048.size inb_S512x2048_S512x2048_0_0
abbrev rW : Rect S2048x2048 := Rect.unit (s := S2048x2048) ![0, 0] S2048x2048.size inb_S2048x2048_S2048x2048_0_0
abbrev rB : Rect S1x2048 := Rect.unit (s := S1x2048) ![0, 0] S1x2048.size inb_S1x2048_S1x2048_0_0

/-- What the body leaves in the output buffer, from the three input blocks: its one store, over the whole buffer. -/
def tile (x0 : Vec F S512x2048 .f32) (x1 : Vec F S2048x2048 .bf16) (x2 : Vec F S1x2048 .f32) : Vec F S512x2048 .f32 :=
  View.canon [⟨rX, k0_pay1 (View.ld x0 rX) (View.ld x1 rW) (View.ld x2 rB)⟩]

/-- The one store covers the buffer. -/
theorem tile_cover (p0 : Vec F S512x2048 .f32) (y : S512x2048.Idx) :
    ∃ pc ∈ ([⟨rX, p0⟩] : List (View.Piece (Elt F) S512x2048 .f32)), y ∈ pc.1.set :=
  View.cover_of_tiled [⟨rX, p0⟩] S512x2048.size (by rfl) y

set_option maxHeartbeats 1000000 in
/-- The body on whole staging buffers — the three inputs at known contents, the output at any — ends with the inputs
    as they were and the output at `tile` of them. -/
theorem sound_kernel (c : Dev nD) (E : Set ℕ) (i : grid0.Coords)
    (arg1 : Memref sig .tc .vmem S512x2048 .f32) (harg1 : arg1.IsWhole) (arg2 : Memref sig .tc .vmem S2048x2048 .bf16) (harg2 : arg2.IsWhole)
    (arg3 : Memref sig .tc .vmem S1x2048 .f32) (harg3 : arg3.IsWhole) (arg4 : Memref sig .tc .vmem S512x2048 .f32) (harg4 : arg4.IsWhole)
    (x0 : Vec F S512x2048 .f32) (x1 : Vec F S2048x2048 .bf16) (x2 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (tile x0 x1 x2)) -∗ K ⟨⟩))
      ⊢ wp frame (wpE (defs₀ (F := F)) Variants.none c none) E (cc0__matmul_kernel i arg1 harg1 arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (tile_cover _)

/-! ## What each window's buffer holds after each tile -/

/-- On core `c`: the arrays as the launch finds them; after tile `t` each input buffer at its block and the output
    buffer at `tile` of the three blocks; nothing else owned or owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => tile (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = tile (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body at a tile -/

/-- What the body is handed at tile `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main ends, with each array of the launch at what the tiles wrote back and every
    other unscoped buffer as the line after the launch leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: every weakly fair execution of @main ends, faults nowhere, and leaves the six arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Frame

end
-- ==== Proof.KernelTile.lean ====
/-
  What one tile computes, entry by entry, over the extended reals: entry (p, q) of the stored block is the sum over
  d of (row p of the tile's rows of x)(d) · (the weight block)(d, q), plus entry q of the bias row. Rounding the
  rows to the narrower format is the identity here, and the product accumulates onto zero.
-/
import proofs.«130482_j59906203844671_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Tile

open Cert.KernelIdeal Cert.KernelIdeal.Gen
open Idealize.ShloMosaic Idealize.ShloMosaic.ValueIdx

/-- The row coordinate of the left factor is the output's row, -/
theorem lhs_row (i : S512x2048.Idx) (k : dot_S512x2048_S2048x2048_S512x2048_1_0_0_1_n_n.contr.Idx) :
    (dot_S512x2048_S2048x2048_S512x2048_1_0_0_1_n_n.lhsIdx i k 0).val = (i 0).val := by
  unfold DotDims.lhsIdx
  rw [dif_neg (show ¬(0 : Fin S512x2048.rank) ∈ dot_S512x2048_S2048x2048_S512x2048_1_0_0_1_n_n.lhsBatch by decide), dif_pos (show (0 : Fin S512x2048.rank) ∈ dot_S512x2048_S2048x2048_S512x2048_1_0_0_1_n_n.lhsNonContracting by decide)]
  rfl
/-- and the column coordinate of the right factor is the output's column. -/
theorem rhs_col (i : S512x2048.Idx) (k : dot_S512x2048_S2048x2048_S512x2048_1_0_0_1_n_n.contr.Idx) :
    (dot_S512x2048_S2048x2048_S512x2048_1_0_0_1_n_n.rhsIdx i k 1).val = (i 1).val := by
  unfold DotDims.rhsIdx
  rw [dif_neg (show ¬(1 : Fin S2048x2048.rank) ∈ dot_S512x2048_S2048x2048_S512x2048_1_0_0_1_n_n.rhsBatch by decide), dif_pos (show (1 : Fin S2048x2048.rank) ∈ dot_S512x2048_S2048x2048_S512x2048_1_0_0_1_n_n.rhsNonContracting by decide)]
  rfl

/-- The stored block at (p, q): the row-by-column product plus the bias. -/
theorem tile_apply (x0 : Vec Ideal S512x2048 .f32) (x1 : Vec Ideal S2048x2048 .bf16) (x2 : Vec Ideal S1x2048 .f32)
    (p : Fin 512) (q : Fin 2048) :
    k0_pay1 (F := Ideal) x0 x1 x2 (ix2 p q)
      = (∑ d : Fin 2048, x0 (ix2 p d) * x1 (ix2 d q)) + x2 (ix2 (0 : Fin 1) q) := by
  unfold k0_pay1
  rw [shapeCast_self, shapeCast_self, shapeCast_self, addf_apply]
  congr 1
  · simp only [matmul]
    rw [Ideal.matmul_constant_zero_apply, ← Equiv.sum_comp (contrEquiv1 dot_S512x2048_S2048x2048_S512x2048_1_0_0_1_n_n 2048 rfl rfl).symm]
    refine Finset.sum_congr rfl fun d _ => ?_
    have hd := contrEquiv1_symm_val dot_S512x2048_S2048x2048_S512x2048_1_0_0_1_n_n 2048 rfl rfl d
    have el : dot_S512x2048_S2048x2048_S512x2048_1_0_0_1_n_n.lhsIdx (ix2 p q) ((contrEquiv1 dot_S512x2048_S2048x2048_S512x2048_1_0_0_1_n_n 2048 rfl rfl).symm d) = ix2 p d := funext fun a => Fin.ext (by
      match a with
      | ⟨0, _⟩ => exact lhs_row _ _
      | ⟨1, _⟩ => exact (dot_S512x2048_S2048x2048_S512x2048_1_0_0_1_n_n.lhsIdx_val_of_single rfl _ _).trans hd)
    have er : dot_S512x2048_S2048x2048_S512x2048_1_0_0_1_n_n.rhsIdx (ix2 p q) ((contrEquiv1 dot_S512x2048_S2048x2048_S512x2048_1_0_0_1_n_n 2048 rfl rfl).symm d) = ix2 d q := funext fun a => Fin.ext (by
      match a with
      | ⟨0, _⟩ => exact (dot_S512x2048_S2048x2048_S512x2048_1_0_0_1_n_n.rhsIdx_val_of_single rfl _ _).trans hd
      | ⟨1, _⟩ => exact rhs_col _ _)
    rw [el, er]
    rfl
  · exact broadcastTo_apply x2 _ (ix2 p q) (ix2 (0 : Fin 1) q) (fun a => match a with
      | ⟨0, _⟩ => by show 0 = if (1 : Nat) = 1 then 0 else _; rw [if_pos rfl]
      | ⟨1, _⟩ => by show q.val = if (2048 : Nat) = 1 then 0 else q.val; rw [if_neg (by decide)])

end Cert.KernelIdeal.Tile

end
-- ==== Proof.Blocks.lean ====
/-
  A 2048 × 2048 matrix cut into a 4 × 4 table of 512 × 512 blocks: entry (u, v) of the matrix is entry
  (u mod 512, v mod 512) of block (u div 512, v div 512). Joining, for each block row, its four blocks side by
  side, and then the four rows one under the other, gives exactly that matrix; this is the one fact about joins
  that the two programs' weight matrices need.
-/
import Idealize.ShloMosaic.PureOps
import Idealize.ShloMosaic.Lib.ValueIdx
import Idealize.ShloMosaic.Lib.Pipeline.Value

namespace Cert.Blocks

open Idealize.ShloMosaic Idealize.ShloMosaic.ValueIdx

/-- The shapes of a block, a block row and the whole matrix. -/
abbrev SQ : Shape := ⟨2, ![512, 512]⟩
abbrev SR : Shape := ⟨2, ![512, 2048]⟩
abbrev SW : Shape := ⟨2, ![2048, 2048]⟩

variable {α : Type}

/-- The matrix whose block (p, q) is `B p q`. -/
def assemble (B : Fin 4 → Fin 4 → SQ.Idx → α) (u v : Fin 2048) : α :=
  B ⟨u.val / 512, by have := u.isLt; omega⟩ ⟨v.val / 512, by have := v.isLt; omega⟩
    (ix2 ⟨u.val % 512, Nat.mod_lt _ (by decide)⟩ ⟨v.val % 512, Nat.mod_lt _ (by decide)⟩)

/-- One block row: four blocks joined along the columns, read at (a, v). -/
theorem row_apply (R : Fin 4 → SQ.Idx → α) (h1 : Shape.Concatenates [SQ, SQ, SQ, SQ] SR 1) (a : Fin 512) (v : Fin 2048) :
    concatenate SR 1 [⟨SQ, R 0⟩, ⟨SQ, R 1⟩, ⟨SQ, R 2⟩, ⟨SQ, R 3⟩] h1 (ix2 a v)
      = R ⟨v.val / 512, by have := v.isLt; omega⟩ (ix2 a ⟨v.val % 512, Nat.mod_lt _ (by decide)⟩) := by
  show concatenate SR 1 (List.ofFn fun n : Fin 4 => (⟨SQ, R n⟩ : (s : Shape) × (s.Idx → α))) h1 (ix2 a v) = _
  refine concatenate_ofFn_apply (t := SR) (s₁ := SQ) 1 R h1 rfl 512 rfl (ix2 a v) ⟨v.val / 512, by have := v.isLt; omega⟩ rfl
    (ix2 a ⟨v.val % 512, Nat.mod_lt _ (by decide)⟩) rfl ?_
  intro b hb
  match b with
  | ⟨0, _⟩ => rfl
  | ⟨1, _⟩ => exact absurd rfl hb

/-- Four block rows joined along the rows, read at (u, v): the block table's matrix. -/
theorem table_apply (B : Fin 4 → Fin 4 → SQ.Idx → α) (h1 : Shape.Concatenates [SQ, SQ, SQ, SQ] SR 1)
    (h0 : Shape.Concatenates [SR, SR, SR, SR] SW 0) (u v : Fin 2048) :
    concatenate SW 0
      [⟨SR, concatenate SR 1 [⟨SQ, B 0 0⟩, ⟨SQ, B 0 1⟩, ⟨SQ, B 0 2⟩, ⟨SQ, B 0 3⟩] h1⟩,
       ⟨SR, concatenate SR 1 [⟨SQ, B 1 0⟩, ⟨SQ, B 1 1⟩, ⟨SQ, B 1 2⟩, ⟨SQ, B 1 3⟩] h1⟩,
       ⟨SR, concatenate SR 1 [⟨SQ, B 2 0⟩, ⟨SQ, B 2 1⟩, ⟨SQ, B 2 2⟩, ⟨SQ, B 2 3⟩] h1⟩,
       ⟨SR, concatenate SR 1 [⟨SQ, B 3 0⟩, ⟨SQ, B 3 1⟩, ⟨SQ, B 3 2⟩, ⟨SQ, B 3 3⟩] h1⟩] h0 (ix2 u v)
      = assemble B u v := by
  let row : Fin 4 → SR.Idx → α := fun p =>
    concatenate SR 1 [⟨SQ, B p 0⟩, ⟨SQ, B p 1⟩, ⟨SQ, B p 2⟩, ⟨SQ, B p 3⟩] h1
  show concatenate SW 0 (List.ofFn fun n : Fin 4 => (⟨SR, row n⟩ : (s : Shape) × (s.Idx → α))) h0 (ix2 u v) = _
  have hu : u.val / 512 < 4 := by have := u.isLt; omega
  rw [concatenate_ofFn_apply (t := SW) (s₁ := SR) 0 row h0 rfl 512 rfl (ix2 u v) ⟨u.val / 512, hu⟩ rfl
    (ix2 ⟨u.val % 512, Nat.mod_lt _ (by decide)⟩ v) rfl (by
      intro b hb
      match b with
      | ⟨0, _⟩ => exact absurd rfl hb
      | ⟨1, _⟩ => rfl)]
  exact row_apply (B ⟨u.val / 512, hu⟩) h1 _ v

end Cert.Blocks
-- ==== Proof.Spec.lean ====
/-
  The function both programs compute, over the extended reals. The weight matrix W is the 2048 × 2048 matrix of the
  quaternion (Hamilton) product: cut into a 4 × 4 table of 512 × 512 blocks it is

        r  -i  -j  -k
        i   r  -k   j
        j   k   r  -i
        k  -j   i   r

  and the result at (β, s, o) is  Σ_d x(β, s, d) · W(o, d) + b(o).
  One program joins these blocks as they stand and contracts x with W along W's columns; the other joins, block by
  block, the TRANSPOSED blocks of the transposed table — block (p, q) of its matrix is the transpose of block (q, p)
  of W — and multiplies x by that matrix from the right. The second matrix at (d, o) is W(o, d): `transposed_eq`.
  No law beyond reading joins and transposes entry by entry is used, so nothing here asks the inputs to be finite.
-/
import proofs.«130482_j59906203844671_2_alg».proof.Proof.Blocks
import Idealize.ShloMosaic.PureOps.Ideal

noncomputable section

namespace Cert.Spec

open Cert.Blocks Idealize.ShloMosaic Idealize.ShloMosaic.ValueIdx

abbrev SX : Shape := ⟨3, ![8, 2048, 2048]⟩
abbrev SB : Shape := ⟨1, ![2048]⟩

/-- The block table of W. -/
def hamilton (r i j k : FVec Ideal SQ .f32) : Fin 4 → Fin 4 → SQ.Idx → Ideal .f32 :=
  ![![r, Host.negf i, Host.negf j, Host.negf k],
    ![i, r, Host.negf k, j],
    ![j, k, r, Host.negf i],
    ![k, Host.negf j, i, r]]

/-- The result: x contracted with W along W's columns, plus the bias along the last axis. -/
def G (x : FVec Ideal SX .f32) (r i j k : FVec Ideal SQ .f32) (b : FVec Ideal SB .f32) : FVec Ideal SX .f32 := fun idx =>
  (∑ d : Fin 2048, x (ix3 (idx 0 : Fin 8) (idx 1 : Fin 2048) d) * assemble (hamilton r i j k) (idx 2 : Fin 2048) d)
    + b (ix1 (idx 2 : Fin 2048))

/-- The block table of the matrix joined from transposed blocks. -/
def transposedTable (h : SQ.Transposes [1, 0] SQ) (r i j k : FVec Ideal SQ .f32) : Fin 4 → Fin 4 → SQ.Idx → Ideal .f32 :=
  ![![transpose SQ [1, 0] r h, transpose SQ [1, 0] i h, transpose SQ [1, 0] j h, transpose SQ [1, 0] k h],
    ![Host.negf (transpose SQ [1, 0] i h), transpose SQ [1, 0] r h, transpose SQ [1, 0] k h, Host.negf (transpose SQ [1, 0] j h)],
    ![Host.negf (transpose SQ [1, 0] j h), Host.negf (transpose SQ [1, 0] k h), transpose SQ [1, 0] r h, transpose SQ [1, 0] i h],
    ![Host.negf (transpose SQ [1, 0] k h), transpose SQ [1, 0] j h, Host.negf (transpose SQ [1, 0] i h), transpose SQ [1, 0] r h]]

/-- A transposed block at (a, b) is the block at (b, a). -/
theorem transpose_block (h : SQ.Transposes [1, 0] SQ) (x : FVec Ideal SQ .f32) (a b : Fin 512) :
    transpose SQ [1, 0] x h (ix2 a b) = x (ix2 b a) :=
  transpose_apply _ x h _ _ (fun c => match c with | ⟨0, _⟩ => rfl | ⟨1, _⟩ => rfl)

/-- Block (p, q) of the transposed table at (a, b) is block (q, p) of W at (b, a). -/
theorem transposed_block (h : SQ.Transposes [1, 0] SQ) (r i j k : FVec Ideal SQ .f32) (p q : Fin 4) (a b : Fin 512) :
    transposedTable h r i j k p q (ix2 a b) = hamilton r i j k q p (ix2 b a) := by
  fin_cases p <;> fin_cases q <;>
    first
      | exact transpose_block h _ a b
      | exact congrArg FloatOps.hostNegf (transpose_block h _ a b)

/-- The matrix joined from the transposed table, at (d, o), is W(o, d). -/
theorem transposed_eq (h : SQ.Transposes [1, 0] SQ) (r i j k : FVec Ideal SQ .f32) (d o : Fin 2048) :
    assemble (transposedTable h r i j k) d o = assemble (hamilton r i j k) o d :=
  transposed_block h r i j k _ _ _ _

end Cert.Spec

end
-- ==== Proof.KernelArrays.lean ====
/-
  The three arrays the launch reads, as it finds them, entry by entry in terms of the arguments:
  the input re-laid as a 16384 × 2048 matrix (row β·2048 + s is x(β, s, ·)); the weight matrix joined from the
  transposed blocks (rounding it to the narrower format changes nothing over the extended reals), which at (d, o) is
  W(o, d); and the bias as one row.
-/
import proofs.«130482_j59906203844671_2_alg».proof.Proof.KernelIdealFrame
import proofs.«130482_j59906203844671_2_alg».proof.Proof.Spec
import Idealize.ShloMosaic.Lib.StableHlo.Run
import Idealize.ShloMosaic.Lib.Pipeline.Value
import Idealize.ShloMosaic.Lib.ValueIdx

noncomputable section

namespace Cert.KernelIdeal.Arrays

open Cert.KernelIdeal Cert.KernelIdeal.Gen Cert.KernelIdeal.Frame
open Idealize.ShloMosaic Idealize.ShloMosaic.TcCoe Idealize.SL.Sem Idealize.ShloMosaic.StableHlo Idealize.ShloMosaic.ValueIdx

variable (m : (ℓ : Loc nD τ sig) → Buf (Elt Ideal) ℓ)

/-- The input matrix the launch finds is the input re-laid. -/
theorem x_eq (c : Dev nD) : (V m c main_v17 : S16384x2048.Idx → EReal)
    = shapeCast S16384x2048 (m ((c : Thread nD τ).loc main_arg0)) shapeCasts_S8x2048x2048_S16384x2048 := by
  show StableHlo.after hostOps0 (fun b => m (c, b)) (Proc.devRef .tc main_v17) = _
  after_results
  rfl

/-- Row β·2048 + s of it is x(β, s, ·). -/
theorem x_apply (c : Dev nD) (β : Fin 8) (s d : Fin 2048) (R : Fin 16384) (hR : R.val = β.val * 2048 + s.val) :
    (V m c main_v17 : S16384x2048.Idx → EReal) (ix2 R d)
      = (m ((c : Thread nD τ).loc main_arg0) : S8x2048x2048.Idx → EReal) (ix3 β s d) := by
  rw [x_eq]
  refine shapeCast_apply _ _ (ix2 R d) (ix3 β s d) ?_
  rw [Shape.rowMajor_val_three, Shape.rowMajor_val_two]
  show (β.val * 2048 + s.val) * 2048 + d.val = R.val * 2048 + d.val
  rw [hR]

/-- The bias row the launch finds is the bias re-laid. -/
theorem b_eq (c : Dev nD) : (V m c main_v16 : S1x2048.Idx → EReal)
    = shapeCast S1x2048 (m ((c : Thread nD τ).loc main_arg5)) shapeCasts_S2048_S1x2048 := by
  show StableHlo.after hostOps0 (fun b => m (c, b)) (Proc.devRef .tc main_v16) = _
  after_results
  rfl

theorem b_apply (c : Dev nD) (o : Fin 2048) :
    (V m c main_v16 : S1x2048.Idx → EReal) (ix2 (0 : Fin 1) o)
      = (m ((c : Thread nD τ).loc main_arg5) : S2048.Idx → EReal) (ix1 o) := by
  rw [b_eq]
  refine shapeCast_apply _ _ (ix2 (0 : Fin 1) o) (ix1 o) ?_
  rw [Shape.rowMajor_val_one, Shape.rowMajor_val_two]
  show o.val = 0 * 2048 + o.val
  omega

/-- The weight matrix the launch finds is the transposed table's matrix (rounded, which is the identity here). -/
theorem w_eq (c : Dev nD) : (V m c main_v15 : S2048x2048.Idx → EReal)
    = truncf .bf16 (concatenate S2048x2048 0
        [⟨S512x2048, concatenate S512x2048 1
          [⟨S512x512, Spec.transposedTable transposes_S512x512_S512x512_1_0 (m ((c : Thread nD τ).loc main_arg1)) (m ((c : Thread nD τ).loc main_arg2)) (m ((c : Thread nD τ).loc main_arg3)) (m ((c : Thread nD τ).loc main_arg4)) 0 0⟩,
           ⟨S512x512, Spec.transposedTable transposes_S512x512_S512x512_1_0 (m ((c : Thread nD τ).loc main_arg1)) (m ((c : Thread nD τ).loc main_arg2)) (m ((c : Thread nD τ).loc main_arg3)) (m ((c : Thread nD τ).loc main_arg4)) 0 1⟩,
           ⟨S512x512, Spec.transposedTable transposes_S512x512_S512x512_1_0 (m ((c : Thread nD τ).loc main_arg1)) (m ((c : Thread nD τ).loc main_arg2)) (m ((c : Thread nD τ).loc main_arg3)) (m ((c : Thread nD τ).loc main_arg4)) 0 2⟩,
           ⟨S512x512, Spec.transposedTable transposes_S512x512_S512x512_1_0 (m ((c : Thread nD τ).loc main_arg1)) (m ((c : Thread nD τ).loc main_arg2)) (m ((c : Thread nD τ).loc main_arg3)) (m ((c : Thread nD τ).loc main_arg4)) 0 3⟩]
          concatenates_S512x512_S512x512_S512x512_S512x512_S512x2048_d1⟩,
         ⟨S512x2048, concatenate S512x2048 1
          [⟨S512x512, Spec.transposedTable transposes_S512x512_S512x512_1_0 (m ((c : Thread nD τ).loc main_arg1)) (m ((c : Thread nD τ).loc main_arg2)) (m ((c : Thread nD τ).loc main_arg3)) (m ((c : Thread nD τ).loc main_arg4)) 1 0⟩,
           ⟨S512x512, Spec.transposedTable transposes_S512x512_S512x512_1_0 (m ((c : Thread nD τ).loc main_arg1)) (m ((c : Thread nD τ).loc main_arg2)) (m ((c : Thread nD τ).loc main_arg3)) (m ((c : Thread nD τ).loc main_arg4)) 1 1⟩,
           ⟨S512x512, Spec.transposedTable transposes_S512x512_S512x512_1_0 (m ((c : Thread nD τ).loc main_arg1)) (m ((c : Thread nD τ).loc main_arg2)) (m ((c : Thread nD τ).loc main_arg3)) (m ((c : Thread nD τ).loc main_arg4)) 1 2⟩,
           ⟨S512x512, Spec.transposedTable transposes_S512x512_S512x512_1_0 (m ((c : Thread nD τ).loc main_arg1)) (m ((c : Thread nD τ).loc main_arg2)) (m ((c : Thread nD τ).loc main_arg3)) (m ((c : Thread nD τ).loc main_arg4)) 1 3⟩]
          concatenates_S512x512_S512x512_S512x512_S512x512_S512x2048_d1⟩,
         ⟨S512x2048, concatenate S512x2048 1
          [⟨S512x512, Spec.transposedTable transposes_S512x512_S512x512_1_0 (m ((c : Thread nD τ).loc main_arg1)) (m ((c : Thread nD τ).loc main_arg2)) (m ((c : Thread nD τ).loc main_arg3)) (m ((c : Thread nD τ).loc main_arg4)) 2 0⟩,
           ⟨S512x512, Spec.transposedTable transposes_S512x512_S512x512_1_0 (m ((c : Thread nD τ).loc main_arg1)) (m ((c : Thread nD τ).loc main_arg2)) (m ((c : Thread nD τ).loc main_arg3)) (m ((c : Thread nD τ).loc main_arg4)) 2 1⟩,
           ⟨S512x512, Spec.transposedTable transposes_S512x512_S512x512_1_0 (m ((c : Thread nD τ).loc main_arg1)) (m ((c : Thread nD τ).loc main_arg2)) (m ((c : Thread nD τ).loc main_arg3)) (m ((c : Thread nD τ).loc main_arg4)) 2 2⟩,
           ⟨S512x512, Spec.transposedTable transposes_S512x512_S512x512_1_0 (m ((c : Thread nD τ).loc main_arg1)) (m ((c : Thread nD τ).loc main_arg2)) (m ((c : Thread nD τ).loc main_arg3)) (m ((c : Thread nD τ).loc main_arg4)) 2 3⟩]
          concatenates_S512x512_S512x512_S512x512_S512x512_S512x2048_d1⟩,
         ⟨S512x2048, concatenate S512x2048 1
          [⟨S512x512, Spec.transposedTable transposes_S512x512_S512x512_1_0 (m ((c : Thread nD τ).loc main_arg1)) (m ((c : Thread nD τ).loc main_arg2)) (m ((c : Thread nD τ).loc main_arg3)) (m ((c : Thread nD τ).loc main_arg4)) 3 0⟩,
           ⟨S512x512, Spec.transposedTable transposes_S512x512_S512x512_1_0 (m ((c : Thread nD τ).loc main_arg1)) (m ((c : Thread nD τ).loc main_arg2)) (m ((c : Thread nD τ).loc main_arg3)) (m ((c : Thread nD τ).loc main_arg4)) 3 1⟩,
           ⟨S512x512, Spec.transposedTable transposes_S512x512_S512x512_1_0 (m ((c : Thread nD τ).loc main_arg1)) (m ((c : Thread nD τ).loc main_arg2)) (m ((c : Thread nD τ).loc main_arg3)) (m ((c : Thread nD τ).loc main_arg4)) 3 2⟩,
           ⟨S512x512, Spec.transposedTable transposes_S512x512_S512x512_1_0 (m ((c : Thread nD τ).loc main_arg1)) (m ((c : Thread nD τ).loc main_arg2)) (m ((c : Thread nD τ).loc main_arg3)) (m ((c : Thread nD τ).loc main_arg4)) 3 3⟩]
          concatenates_S512x512_S512x512_S512x512_S512x512_S512x2048_d1⟩]
        concatenates_S512x2048_S512x2048_S512x2048_S512x2048_S2048x2048_d0) bitsLt_bf16_f32 := by
  show StableHlo.after hostOps0 (fun b => m (c, b)) (Proc.devRef .tc main_v15) = _
  after_results
  rfl

/-- At (d, o) it is W(o, d). -/
theorem w_apply (c : Dev nD) (d o : Fin 2048) :
    (V m c main_v15 : S2048x2048.Idx → EReal) (ix2 d o)
      = Blocks.assemble (Spec.hamilton (m ((c : Thread nD τ).loc main_arg1)) (m ((c : Thread nD τ).loc main_arg2)) (m ((c : Thread nD τ).loc main_arg3)) (m ((c : Thread nD τ).loc main_arg4))) o d := by
  rw [w_eq]
  refine Eq.trans ?_ (Spec.transposed_eq transposes_S512x512_S512x512_1_0 _ _ _ _ d o)
  exact Blocks.table_apply (Spec.transposedTable transposes_S512x512_S512x512_1_0 (m ((c : Thread nD τ).loc main_arg1)) (m ((c : Thread nD τ).loc main_arg2)) (m ((c : Thread nD τ).loc main_arg3)) (m ((c : Thread nD τ).loc main_arg4)))
    concatenates_S512x512_S512x512_S512x512_S512x512_S512x2048_d1 concatenates_S512x2048_S512x2048_S512x2048_S512x2048_S2048x2048_d0 d o

end Cert.KernelIdeal.Arrays

end
-- ==== Proof.KernelWhole.lean ====
/-
  The result of the program with the launch, as one function of the arguments. Tile t covers rows 512·t … 512·t + 511
  of the 16384 × 2048 product matrix; each entry of the matrix lies in exactly the tile its row names, so after the 32
  tiles the matrix holds, at (R, o), the product of row R of the input matrix with column o of the weight matrix plus
  the bias at o. Re-laid as 8 × 2048 × 2048 and read through the three arrays' entries, that is `Spec.G`.
-/
import proofs.«130482_j59906203844671_2_alg».proof.Proof.KernelIdealFrame
import proofs.«130482_j59906203844671_2_alg».proof.Proof.KernelTile
import proofs.«130482_j59906203844671_2_alg».proof.Proof.KernelArrays
import proofs.«130482_j59906203844671_2_alg».proof.Proof.Spec
import Idealize.ShloMosaic.Lib.StableHlo.Run
import Idealize.ShloMosaic.Lib.Pipeline.Value
import Idealize.ShloMosaic.Lib.ValueIdx
import Idealize.ShloMosaic.Lib.Tactic

noncomputable section

namespace Cert.KernelIdeal.Whole

open Cert.KernelIdeal Cert.KernelIdeal.Gen Cert.KernelIdeal.Frame
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- A product matrix: row R of X times column o of Wt, plus B at o. -/
def matProduct (X : Vec Ideal S16384x2048 .f32) (Wt : Vec Ideal S2048x2048 .bf16) (B : Vec Ideal S1x2048 .f32) :
    Vec Ideal S16384x2048 .f32 := fun i =>
  (∑ d : Fin 2048, X (ix2 (i 0 : Fin 16384) d) * Wt (ix2 d (i 1 : Fin 2048))) + B (ix2 (0 : Fin 1) (i 1 : Fin 2048))

/-- The product matrix of the three arrays the launch finds. -/
def product (c : Dev nD) : Vec Ideal S16384x2048 .f32 :=
  matProduct (V m c main_v17) (V m c main_v15) (V m c main_v16)

/-- Where each window's block sits at tile t: the input's and the output's at block row t, the weights' and the bias's
    at the origin. -/
theorem where_x : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem where_w : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem where_b : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem where_out : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

/-- The input block at tile t is rows 512·t … of the input matrix. -/
theorem x_block (c : Dev nD) (t : Fin cfg0.N) (y : S512x2048.Idx) (k : S16384x2048.Idx)
    (hk0 : (k 0).val = 512 * t.val + (y 0).val) (hk1 : (k 1).val = (y 1).val) :
    (iblk m c 0 t : Vec Ideal S512x2048 .f32) y = (V m c main_v17 : S16384x2048.Idx → EReal) k := by
  have hi := where_x t
  unfold iblk
  rw [View.read_apply]
  show V m c main_v17 _ = V m c main_v17 _
  congr 1
  funext a
  apply Fin.ext
  match a with
  | ⟨0, _⟩ => show win0_0.index t 0 * 512 + 1 * (y 0).val = (k 0).val; rw [hi.1, hk0]; omega
  | ⟨1, _⟩ => show win0_0.index t 1 * 2048 + 1 * (y 1).val = (k 1).val; rw [hi.2, hk1]; omega

/-- The weight block at every tile is the whole weight matrix. -/
theorem w_block (c : Dev nD) (t : Fin cfg0.N) (y : S2048x2048.Idx) (k : S2048x2048.Idx)
    (hk0 : (k 0).val = (y 0).val) (hk1 : (k 1).val = (y 1).val) :
    (iblk m c 1 t : Vec Ideal S2048x2048 .bf16) y = (V m c main_v15 : S2048x2048.Idx → EReal) k := by
  have hi := where_w t
  unfold iblk
  rw [View.read_apply]
  show V m c main_v15 _ = V m c main_v15 _
  congr 1
  funext a
  apply Fin.ext
  match a with
  | ⟨0, _⟩ => show win0_1.index t 0 * 2048 + 1 * (y 0).val = (k 0).val; rw [hi.1, hk0]; omega
  | ⟨1, _⟩ => show win0_1.index t 1 * 2048 + 1 * (y 1).val = (k 1).val; rw [hi.2, hk1]; omega

/-- The bias block at every tile is the whole bias row. -/
theorem b_block (c : Dev nD) (t : Fin cfg0.N) (y : S1x2048.Idx) (k : S1x2048.Idx)
    (hk0 : (k 0).val = (y 0).val) (hk1 : (k 1).val = (y 1).val) :
    (iblk m c 2 t : Vec Ideal S1x2048 .f32) y = (V m c main_v16 : S1x2048.Idx → EReal) k := by
  have hi := where_b t
  unfold iblk
  rw [View.read_apply]
  show V m c main_v16 _ = V m c main_v16 _
  congr 1
  funext a
  apply Fin.ext
  match a with
  | ⟨0, _⟩ => show win0_2.index t 0 * 1 + 1 * (y 0).val = (k 0).val; rw [hi.1, hk0]; omega
  | ⟨1, _⟩ => show win0_2.index t 1 * 2048 + 1 * (y 1).val = (k 1).val; rw [hi.2, hk1]; omega

/-- What tile t writes back is block t of the product matrix. -/
theorem flushed_eq (c : Dev nD) (t : Fin cfg0.N) :
    (dats m 0 c).flushed 3 t = ((cfg0.win 3).blk t).view.read (Elt Ideal) (product m c) := by
  show (cfg0.win 3).cut (grid0.coords t) ((dats m 0 c).after 3 t) = _
  rw [after0_3]
  unfold tile
  rw [View.canon_unit_zero hz]
  simp only [View.ld_unit_zero (S := S512x2048) hz, View.ld_unit_zero (S := S2048x2048) hz, View.ld_unit_zero (S := S1x2048) hz]
  funext y
  obtain ⟨p, q, rfl⟩ : ∃ (p : Fin 512) (q : Fin 2048), y = ix2 p q := ⟨y 0, y 1, eq_ix2 y⟩
  rw [View.read_apply]
  refine (Tile.tile_apply _ _ _ p q).trans ?_
  have ho := where_out t
  have e0 : ((((cfg0.win 3).blk t).view.emb (ix2 p q)) 0).val = 512 * t.val + p.val := by
    show win0_3.index t 0 * 512 + 1 * p.val = _; rw [ho.1]; omega
  have e1 : ((((cfg0.win 3).blk t).view.emb (ix2 p q)) 1).val = q.val := by
    show win0_3.index t 1 * 2048 + 1 * q.val = _; rw [ho.2]; omega
  unfold product matProduct
  refine congrArg₂ (· + ·) (Finset.sum_congr rfl fun d _ => congrArg₂ (· * ·) ?_ ?_) ?_
  · exact x_block m c t (ix2 p d) (ix2 _ d) e0 rfl
  · exact w_block m c t (ix2 d q) (ix2 d _) rfl e1
  · exact b_block m c t (ix2 (0 : Fin 1) q) (ix2 (0 : Fin 1) _) rfl e1

/-- An entry of the product matrix is in tile t's block iff its row is one of the tile's 512 rows. -/
theorem mem_block (t : Fin cfg0.N) (i : S16384x2048.Idx) :
    i ∈ ((cfg0.win 3).blk t).view.set ↔ ∀ a : Fin 2, win0_3.index t a * S512x2048.size a ≤ (i a).val ∧ (i a).val < win0_3.index t a * S512x2048.size a + S512x2048.size a := by
  show i ∈ ((View.whole main_v18).slice (win0_3.rect t)).set ↔ _
  rw [View.set_slice_whole, Rect.mem_set_unit]
  exact Iff.rfl

/-- Every entry is in the block of the tile its row names. -/
theorem covered (i : S16384x2048.Idx) : ∃ t : Fin cfg0.N, (cfg0.win 3).flush t = true ∧ i ∈ ((cfg0.win 3).blk t).view.set := by
  have hi0 : (i 0).val < 16384 := (i 0).isLt
  have hi1 : (i 1).val < 2048 := (i 1).isLt
  have hN : cfg0.N = 32 := N_0
  refine ⟨⟨(i 0).val / 512, by rw [hN]; omega⟩, flush0_3 _, ?_⟩
  rw [mem_block]
  have ho := where_out ⟨(i 0).val / 512, by rw [hN]; omega⟩
  intro a
  match a with
  | ⟨0, _⟩ =>
    show win0_3.index _ 0 * 512 ≤ (i 0).val ∧ (i 0).val < win0_3.index _ 0 * 512 + 512
    rw [ho.1]; show (i 0).val / 512 * 512 ≤ (i 0).val ∧ (i 0).val < (i 0).val / 512 * 512 + 512; omega
  | ⟨1, _⟩ =>
    show win0_3.index _ 1 * 2048 ≤ (i 1).val ∧ (i 1).val < win0_3.index _ 1 * 2048 + 2048
    rw [ho.2]; omega

/-- After the 32 tiles the output array of the launch is the product matrix. -/
theorem final (c : Dev nD) : (dats m 0 c).arrAt 3 cfg0.N = product m c :=
  (dats m 0 c).arrAt_eq_of_cover 3 (product m c) (fun t _ => flushed_eq m c t) covered

end Cert.KernelIdeal.Whole

end
-- ==== Proof.KernelResult.lean ====
/-
  The program's result. The line after the launch re-lays the product matrix as 8 × 2048 × 2048: entry (β, s, o) is
  entry (β·2048 + s, o) of the product matrix, which — reading the input matrix, the weight matrix and the bias row
  through the arguments — is Σ_d x(β, s, d) · W(o, d) + b(o).
-/
import proofs.«130482_j59906203844671_2_alg».proof.Proof.KernelWhole

noncomputable section

namespace Cert.KernelIdeal.Result

open Cert.KernelIdeal Cert.KernelIdeal.Gen Cert.KernelIdeal.Frame Cert.KernelIdeal.Whole
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

/-- A product matrix re-laid as 8 × 2048 × 2048, read at (β, s, o), given what its three factors are entry by entry. -/
theorem relaid_apply (X : Vec Ideal S16384x2048 .f32) (Wt : Vec Ideal S2048x2048 .bf16) (B : Vec Ideal S1x2048 .f32)
    (x : FVec Ideal Spec.SX .f32) (W : Fin 2048 → Fin 2048 → Ideal .f32) (b : FVec Ideal Spec.SB .f32)
    (hX : ∀ (β : Fin 8) (s d : Fin 2048) (R : Fin 16384), R.val = β.val * 2048 + s.val → X (ix2 R d) = x (ix3 β s d))
    (hW : ∀ d o : Fin 2048, Wt (ix2 d o) = W o d) (hB : ∀ o : Fin 2048, B (ix2 (0 : Fin 1) o) = b (ix1 o))
    (β : Fin 8) (s o : Fin 2048) :
    shapeCast S8x2048x2048 (matProduct X Wt B) shapeCasts_S16384x2048_S8x2048x2048 (ix3 β s o)
      = (∑ d : Fin 2048, x (ix3 β s d) * W o d) + b (ix1 o) := by
  have hR : β.val * 2048 + s.val < 16384 := by have := β.isLt; have := s.isLt; omega
  rw [shapeCast_apply (matProduct X Wt B) _ (ix3 β s o) (ix2 (⟨β.val * 2048 + s.val, hR⟩ : Fin 16384) o) (by
    rw [Shape.rowMajor_val_two, Shape.rowMajor_val_three]; rfl)]
  unfold matProduct
  refine congrArg₂ (· + ·) (Finset.sum_congr rfl fun d _ => ?_) (hB o)
  show X (ix2 (⟨β.val * 2048 + s.val, hR⟩ : Fin 16384) d) * Wt (ix2 d o) = x (ix3 β s d) * W o d
  rw [hX β s d ⟨β.val * 2048 + s.val, hR⟩ rfl, hW d o]

/-- The product matrix of the launch, re-laid, is the specified function of the arguments. -/
theorem relaid_eq (c : Dev nD) :
    shapeCast S8x2048x2048 (product m c) shapeCasts_S16384x2048_S8x2048x2048
      = Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext idx
  obtain ⟨β, s, o, rfl⟩ : ∃ (β : Fin 8) (s o : Fin 2048), idx = ix3 β s o := ⟨idx 0, idx 1, idx 2, eq_ix3 idx⟩
  exact relaid_apply (V m c main_v17) (V m c main_v15) (V m c main_v16) (m ((c : Thread nD τ).loc main_arg0))
    (fun o d => Blocks.assemble (Spec.hamilton (m ((c : Thread nD τ).loc main_arg1)) (m ((c : Thread nD τ).loc main_arg2)) (m ((c : Thread nD τ).loc main_arg3)) (m ((c : Thread nD τ).loc main_arg4))) o d)
    (m ((c : Thread nD τ).loc main_arg5)) (Arrays.x_apply m c) (Arrays.w_apply m c) (Arrays.b_apply m c) β s o

/-- What the result buffer holds once the line after the launch has run. -/
theorem result_eq (c : Dev nD) :
    Pipeline.afterTail₀ cfgs (dats m) 0 (V0 m) [hostOps1] c main_v19 = Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [← relaid_eq m c, ← final m c]
  unfold Pipeline.afterTail₀
  show StableHlo.after hostOps1 _ (Proc.devRef .tc main_v19) = _
  after_results
  rw [Pipeline.withArrays_arr spec0 launch0.win.arr_inj c _ _ 3]
  rfl

/-- Every weakly fair execution of the program ends with the result at the specified function of the arguments, and
    the arguments unchanged. -/
theorem run : θ_run defs (onTc (τ := τ) (main (F := Ideal))) ⟨m, fun _ => 0, ρ⟩ fun r => ∀ c : Dev nD,
      r.2.mem ((c.tc : Thread nD τ).loc main_v19) = Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h c).2 main_v19 (Pipeline.mem_restRefs_of main_v19 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Result

end
-- ==== Proof.ReferenceWhole.lean ====
/-
  The reference, read entry by entry: its result at (β, s, o) is Σ_d x(β, s, d) · W(o, d) + b(o), W the matrix joined
  from the Hamilton table's blocks as they stand — the function `Spec.G`.
-/
import proofs.«130482_j59906203844671_2_alg».proof.Proof.Gen.ReferenceIdeal.Read
import proofs.«130482_j59906203844671_2_alg».proof.Proof.Spec

noncomputable section

namespace Cert.ReferenceIdeal.Whole

open Cert.ReferenceIdeal Cert.ReferenceIdeal.Gen Cert.ReferenceIdeal.Read
open Idealize.ShloMosaic Idealize.ShloMosaic.ValueIdx

theorem result_eq (x0 : (⟨S8x2048x2048, .f32⟩ : BufTy).Contents (Elt Ideal)) (x1 x2 x3 x4 : (⟨S512x512, .f32⟩ : BufTy).Contents (Elt Ideal))
    (x5 : (⟨S2048, .f32⟩ : BufTy).Contents (Elt Ideal)) :
    val_main_v14 (F := Ideal) x0 x1 x2 x3 x4 x5 = Spec.G x0 x1 x2 x3 x4 x5 := by
  funext i
  rw [val_main_v14_apply, val_main_v11_apply, val_main_v13_apply, val_main_v12_apply]
  unfold Spec.G
  show (∑ d : Fin 2048, x0 (lidx_main_v11 i d) * val_main_v10 (F := Ideal) x1 x2 x3 x4 (ridx_main_v11 i d)) + x5 (idx_main_v12 (idx_main_v13 i)) = _
  congr 1
  · refine Finset.sum_congr rfl fun d _ => ?_
    congr 1
    · exact congrArg x0 (funext fun a => match a with | ⟨0, _⟩ => rfl | ⟨1, _⟩ => rfl | ⟨2, _⟩ => rfl)
    · have e : ridx_main_v11 i d = ix2 (i 2 : Fin 2048) d := funext fun a => match a with | ⟨0, _⟩ => rfl | ⟨1, _⟩ => rfl
      rw [e]
      exact Blocks.table_apply (Spec.hamilton x1 x2 x3 x4) concatenates_S512x512_S512x512_S512x512_S512x512_S512x2048_d1
        concatenates_S512x2048_S512x2048_S512x2048_S512x2048_S2048x2048_d0 (i 2) d
  · exact congrArg x5 (funext fun a => match a with | ⟨0, _⟩ => rfl)

end Cert.ReferenceIdeal.Whole

end
-- ==== Proof.lean ====
/-
  The five claims about y = x · Wᵀ + b with W the quaternion (Hamilton) product matrix of four 512 × 512 blocks.
  The program with the launch assembles Wᵀ directly from the transposed blocks and multiplies 512-row tiles of x by
  it; the reference assembles W from the blocks as they stand and contracts x with W along W's columns. Over the
  extended reals both results are, at (β, s, o), Σ_d x(β, s, d) · W(o, d) + b(o) (`Spec.G`): the only fact used is
  that the matrix joined from the transposed table is the transpose of W, entry by entry. No sum is reordered and no
  factor moved, so the finiteness of the inputs is never opened.
  The three frames: each program's @main ends on every weakly fair execution, faults nowhere, and writes none of its
  six arguments. The idealized program is the printed one read over the extended reals with nothing rewritten, so
  there is nothing to preserve beyond that reading.
-/
import proofs.«130482_j59906203844671_2_alg».proof.Defs
import proofs.«130482_j59906203844671_2_alg».proof.Proof.Gen.Kernel
import proofs.«130482_j59906203844671_2_alg».proof.Proof.Gen.KernelIdeal
import proofs.«130482_j59906203844671_2_alg».proof.Proof.Gen.ReferenceIdeal
import proofs.«130482_j59906203844671_2_alg».proof.Proof.Gen.ReferenceIdeal.Run
import proofs.«130482_j59906203844671_2_alg».proof.Proof.Gen.ReferenceIdeal.Read
import proofs.«130482_j59906203844671_2_alg».proof.Proof.Gen.Pre_finite_inputs
import proofs.«130482_j59906203844671_2_alg».proof.Proof.KernelFrame
import proofs.«130482_j59906203844671_2_alg».proof.Proof.KernelIdealFrame
import proofs.«130482_j59906203844671_2_alg».proof.Proof.KernelResult
import proofs.«130482_j59906203844671_2_alg».proof.Proof.ReferenceWhole
import Idealize.ShloMosaic.Adequacy
import Idealize.ShloMosaic.Init

noncomputable section

namespace Cert.Proof

open Idealize.ShloMosaic Idealize.SL.Sem

theorem frame_kernel : Cert.frame_Kernel := fun m ρ _ => Cert.Kernel.Frame.frame (F := Bits) m ρ

theorem frame_kernelIdeal : Cert.frame_KernelIdeal := fun m ρ _ => Cert.KernelIdeal.Frame.frame (F := Ideal) m ρ

/-- The reference has no launch: its run is the composition of its lines, and none writes an argument. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result at `Spec.G` of the (agreeing) arguments. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.Whole.result_eq,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
